-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg9 : FVec F S128x40 .f32) (main_arg10 : FVec F S128x40 .f32) (main_arg11 : FVec F S40 .f32) (main_v33 : IVec S_ 1) : IVec S_ 1 :=
  let main_v34 : FVec F S128x40 .f32 := Host.absf main_arg9
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S128x40 .f32 := Host.absf main_arg10
  let main_cst_14 : FVec F S_ .f32 := constant S_ .f32 0x7F800000#32
  let main_v40 : FVec F S128x40 .f32 := broadcastInDim S128x40 ![] bcast_S_S128x40 main_cst_14
  let main_v41 : IVec S128x40 1 := cmpf .olt main_v39 main_v40
  let main_c_15 : IVec S_ 1 := constantI S_ 1 1#1
  let main_v42 : IVec S_ 1 := (fun x v => Host.reduce IntOp.andi x v reducesTo_S128x40_S_d0_1 h_S_) main_v41 main_c_15
  let main_v43 : IVec S_ 1 := andi main_v38 main_v42
  let main_v44 : FVec F S40 .f32 := Host.absf main_arg11
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x40 .f32) (main_arg10 : FVec F S128x40 .f32) (main_arg11 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x40 .f32) (main_arg10 : FVec F S128x40 .f32) (main_arg11 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S1x40 : Shape := ⟨2, ![1, 40]⟩
abbrev S100000x40 : Shape := ⟨2, ![100000, 40]⟩
abbrev S5000x40 : Shape := ⟨2, ![5000, 40]⟩

abbrev nBuf : Space → Nat
  | .hbm => 76
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x40, .f32⟩
  | .hbm, ⟨10, _⟩ => ⟨S128x40, .f32⟩
  | .hbm, ⟨11, _⟩ => ⟨S40, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x40, .f32⟩
  | .hbm, ⟨75, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x40, .f32⟩
  | .local _ .vmem, ⟨23, _⟩ => ⟨S128x40, .f32⟩
  | .local _ .vmem, ⟨24, _⟩ => ⟨S1x40, .f32⟩
  | .local _ .vmem, ⟨25, _⟩ => ⟨S5000x40, .f32⟩
  | .local _ .vmem, ⟨26, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_c_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x40.size a ≤ S128x40.size a
  hwx2_2 : ∀ i : grid2.Coords, EltTy.bits .f32 = 32 ∨ (Rect.block (s := S128x40) S128x40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x40.size a ≤ S128x40.size a
  hwx2_3 : ∀ i : grid2.Coords, EltTy.bits .f32 = 32 ∨ (Rect.block (s := S128x40) S128x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x40.size a ≤ S1x40.size a
  hwx2_4 : ∀ i : grid2.Coords, EltTy.bits .f32 = 32 ∨ (Rect.block (s := S1x40) S1x40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x40.size a ≤ S100000x40.size a
  hwx2_5 : ∀ i : grid2.Coords, EltTy.bits .f32 = 32 ∨ (Rect.block (s := S100000x40) S5000x40.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v36) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S5000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x40 : Shape := ⟨2, ![100000, 40]⟩
abbrev S1x40 : Shape := ⟨2, ![1, 40]⟩

abbrev nBuf : Space → Nat
  | .hbm => 94
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x40, .f32⟩
  | .hbm, ⟨10, _⟩ => ⟨S128x40, .f32⟩
  | .hbm, ⟨11, _⟩ => ⟨S40, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x128, .f32⟩
  | .hbm, ⟨82, _⟩ => ⟨S_, .f32⟩
  | .hbm, ⟨83, _⟩ => ⟨S100000x128, .f32⟩
  | .hbm, ⟨84, _⟩ => ⟨S1600000x1, .i32⟩
  | .hbm, ⟨85, _⟩ => ⟨S100000x128, .f32⟩
  | .hbm, ⟨86, _⟩ => ⟨S100000x128, .f32⟩
  | .hbm, ⟨87, _⟩ => ⟨S100000x128, .f32⟩
  | .hbm, ⟨88, _⟩ => ⟨S100000x40, .f32⟩
  | .hbm, ⟨89, _⟩ => ⟨S100000x40, .f32⟩
  | .hbm, ⟨90, _⟩ => ⟨S100000x40, .f32⟩
  | .hbm, ⟨91, _⟩ => ⟨S1x40, .f32⟩
  | .hbm, ⟨92, _⟩ => ⟨S100000x40, .f32⟩
  | .hbm, ⟨93, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_cst : Ref sig .tc := ⟨.hbm, 46, rfl⟩
abbrev main_call0_v0 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_call1_cst : Ref sig .tc := ⟨.hbm, 70, rfl⟩
abbrev main_call1_v0 : Ref sig .tc := ⟨.hbm, 71, rfl⟩
abbrev main_v46 : Ref sig .tc := ⟨.hbm, 72, rfl⟩
abbrev main_c_8 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KernelRun.lean ====
/-
  The idealized kernel's run with its result named.

  The program is three launches among three stretches of host operations. The frame certificate's run carries, at the return,
  the fact that every unscoped buffer of a TensorCore holds what the fold through the six segments leaves there (`W6`); the
  frame claim keeps of it only the twelve argument buffers. Here the same run is re-posted with the result buffer kept too: at the
  return the result holds `W6` at that buffer, and the arguments are as launched.
-/
import proofs.«174710_j26379689132538_1_alg».proof.Proof.GenP.KernelIdeal.Frame

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; at the return the result buffer holds the fold's value
    there and every argument buffer its launch contents. -/
theorem run : θ_run defs (onTc (τ := τ) (main (F := F))) ⟨m, fun _ => 0, ρ⟩ (fun r => ∀ c : Dev nD,
      r.2.mem ((c.tc : Thread nD τ).loc main_v50) = W6 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v50 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.Run

end
-- ==== Proof.Dense.lean ====
/-
  The dense combine of one graph layer, as a function of whole arrays, index by index.

  A layer maps the node features `x` (one row of 128 numbers per node) and the averaged neighbour features `agg` (same
  shape) to  x · Ws + agg · Wn + b : entry (r, q) of the result is
      ∑ₖ x[r, k] · Ws[k, q]  +  ∑ₖ agg[r, k] · Wn[k, q]  +  b[0, q],
  two sums over the 128 feature columns, grouped exactly so, and the bias added last. Layers one and two then clamp the entry
  below at zero. Row `r` of the result depends on row `r` of `x` and of `agg` only, which is why the same formula describes the whole
  array of 100000 rows and any block of 5000 consecutive rows of it (`dense_congr`).
  Everything is over the extended reals; no law beyond the definitions is used, so nothing here needs the entries to be finite.
-/
import Idealize.ShloMosaic.PureOps.Ideal
import Idealize.ShloMosaic.Lib.ValueIdx

noncomputable section

open scoped BigOperators

namespace Cert.Sage

open Idealize.ShloMosaic Idealize.ShloMosaic.ValueIdx

/-- Entry `j = (r, q)` of `x · Ws + agg · Wn + b`, for arrays of `R` rows and weight matrices of `N` columns. -/
def dense {R N : Nat} (x agg : FVec Ideal ⟨2, ![R, 128]⟩ .f32) (ws wn : FVec Ideal ⟨2, ![128, N]⟩ .f32)
    (b : FVec Ideal ⟨2, ![1, N]⟩ .f32) : FVec Ideal ⟨2, ![R, N]⟩ .f32 :=
  fun j => (∑ k : Fin 128, x (ix2 (j 0) k) * ws (ix2 k (j 1)) + ∑ k : Fin 128, agg (ix2 (j 0) k) * wn (ix2 k (j 1)))
    + b (ix2 (0 : Fin 1) (j 1))

/-- The same entry clamped below at zero. -/
def denseRelu {R N : Nat} (x agg : FVec Ideal ⟨2, ![R, 128]⟩ .f32) (ws wn : FVec Ideal ⟨2, ![128, N]⟩ .f32)
    (b : FVec Ideal ⟨2, ![1, N]⟩ .f32) : FVec Ideal ⟨2, ![R, N]⟩ .f32 :=
  fun j => max (dense x agg ws wn b j) (0 : EReal)

theorem dense_apply {R N : Nat} (x agg : FVec Ideal ⟨2, ![R, 128]⟩ .f32) (ws wn : FVec Ideal ⟨2, ![128, N]⟩ .f32)
    (b : FVec Ideal ⟨2, ![1, N]⟩ .f32) (r : Fin R) (q : Fin N) :
    dense x agg ws wn b (ix2 r q)
      = (∑ k : Fin 128, x (ix2 r k) * ws (ix2 k q) + ∑ k : Fin 128, agg (ix2 r k) * wn (ix2 k q)) + b (ix2 (0 : Fin 1) q) := rfl

theorem denseRelu_apply {R N : Nat} (x agg : FVec Ideal ⟨2, ![R, 128]⟩ .f32) (ws wn : FVec Ideal ⟨2, ![128, N]⟩ .f32)
    (b : FVec Ideal ⟨2, ![1, N]⟩ .f32) (r : Fin R) (q : Fin N) :
    denseRelu x agg ws wn b (ix2 r q)
      = max ((∑ k : Fin 128, x (ix2 r k) * ws (ix2 k q) + ∑ k : Fin 128, agg (ix2 r k) * wn (ix2 k q)) + b (ix2 (0 : Fin 1) q)) (0 : EReal) := rfl

/-- CONGRUENCE at an entry: entry (p, q) of the combine of one set of operands is entry (r, q) of the combine of another, as
    soon as row `p` of the first `x` and `agg` is row `r` of the second, column `q` of the weights agrees, and so does the bias at
    `q`. (A block of rows of the arrays against the arrays themselves: the row moves, everything else stays.) -/
theorem dense_congr {R R' N : Nat} (x agg : FVec Ideal ⟨2, ![R, 128]⟩ .f32) (x' agg' : FVec Ideal ⟨2, ![R', 128]⟩ .f32)
    (ws wn ws' wn' : FVec Ideal ⟨2, ![128, N]⟩ .f32) (b b' : FVec Ideal ⟨2, ![1, N]⟩ .f32) (p : Fin R') (r : Fin R) (q : Fin N)
    (hx : ∀ k : Fin 128, x' (ix2 p k) = x (ix2 r k)) (ha : ∀ k : Fin 128, agg' (ix2 p k) = agg (ix2 r k))
    (hws : ∀ k : Fin 128, ws' (ix2 k q) = ws (ix2 k q)) (hwn : ∀ k : Fin 128, wn' (ix2 k q) = wn (ix2 k q))
    (hb : b' (ix2 (0 : Fin 1) q) = b (ix2 (0 : Fin 1) q)) :
    dense x' agg' ws' wn' b' (ix2 p q) = dense x agg ws wn b (ix2 r q) := by
  rw [dense_apply, dense_apply]
  simp only [hx, ha, hws, hwn, hb]

theorem denseRelu_congr {R R' N : Nat} (x agg : FVec Ideal ⟨2, ![R, 128]⟩ .f32) (x' agg' : FVec Ideal ⟨2, ![R', 128]⟩ .f32)
    (ws wn ws' wn' : FVec Ideal ⟨2, ![128, N]⟩ .f32) (b b' : FVec Ideal ⟨2, ![1, N]⟩ .f32) (p : Fin R') (r : Fin R) (q : Fin N)
    (hx : ∀ k : Fin 128, x' (ix2 p k) = x (ix2 r k)) (ha : ∀ k : Fin 128, agg' (ix2 p k) = agg (ix2 r k))
    (hws : ∀ k : Fin 128, ws' (ix2 k q) = ws (ix2 k q)) (hwn : ∀ k : Fin 128, wn' (ix2 k q) = wn (ix2 k q))
    (hb : b' (ix2 (0 : Fin 1) q) = b (ix2 (0 : Fin 1) q)) :
    denseRelu x' agg' ws' wn' b' (ix2 p q) = denseRelu x agg ws wn b (ix2 r q) := by
  rw [denseRelu_apply, denseRelu_apply]
  simp only [hx, ha, hws, hwn, hb]

end Cert.Sage

end
-- ==== Proof.KernelBody.lean ====
/-
  The body of the dense kernel, at the exact instance, is the dense combine of its five loaded blocks.

  Each of the three launches runs the same body on a block of 5000 rows: it multiplies the block of `x` by `Ws` and the block of
  `agg` by `Wn` on the matrix unit (each into a zero accumulator, so each product entry is the plain sum over the 128 columns), adds
  the two products, adds the bias row to every row, and — in the first two launches — clamps below at zero. The narrowing of
  the four operands to the 16-bit format before the products is the identity at the exact instance, and so are the two casts of
  a block to its own shape.
-/
import proofs.«174710_j26379689132538_1_alg».proof.Proof.Gen.KernelIdeal.Skeleton
import proofs.«174710_j26379689132538_1_alg».proof.Proof.Dense
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Body

open Cert.KernelIdeal Cert.KernelIdeal.Gen Cert.Sage
open Idealize.ShloMosaic Idealize.ShloMosaic.TcCoe Idealize.ShloMosaic.ValueIdx Idealize.SL.Sem

/-! ## A matrix product into the zero accumulator, read at an entry

  For a product of a [5000, 128] block with a [128, N] matrix the record's operand indices at the output entry (p, q) and the
  contraction position k are (p, k) and (k, q); the contraction index type is carried to `Fin 128`. -/

theorem lhs128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs128_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs128_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of a [5000,128] × [128,128] product into zero: the sum over k of lhs[p,k] · rhs[k,q]. -/
theorem matmul128_at {φ₁ φ₂ : FTy} (lhs : FVec Ideal S5000x128 φ₁) (rhs : FVec Ideal S128x128 φ₂) (p : Fin 5000) (q : Fin 128) :
    matmul dot_S5000x128_S128x128_S5000x128_1_0_0_1_n_n none lhs rhs (constant (F := Ideal) S5000x128 .f32 0x00000000#32) (ix2 p q)
      = ∑ k : Fin 128, lhs (ix2 p k) * rhs (ix2 k q) := by
  refine (Ideal.matmul_constant_zero_apply dot_S5000x128_S128x128_S5000x128_1_0_0_1_n_n none lhs rhs (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

theorem lhs40_0 (i : S5000x40.Idx) (q : dot_S5000x128_S128x40_S5000x40_1_0_0_1_n_n.contr.Idx) :
    (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
theorem lhs40_1 (i : S5000x40.Idx) (q : dot_S5000x128_S128x40_S5000x40_1_0_0_1_n_n.contr.Idx) :
    (dot_S5000x128_S128x40_S5000x40_1_0_0_1_n_n.lhsIdx i q 1).val = (q ⟨0, by decide⟩).val :=
  dot_S5000x128_S128x40_S5000x40_1_0_0_1_n_n.lhsIdx_val_of_single rfl i q
theorem rhs40_0 (i : S5000x40.Idx) (q : dot_S5000x128_S128x40_S5000x40_1_0_0_1_n_n.contr.Idx) :
    (dot_S5000x128_S128x40_S5000x40_1_0_0_1_n_n.rhsIdx i q 0).val = (q ⟨0, by decide⟩).val :=
  dot_S5000x128_S128x40_S5000x40_1_0_0_1_n_n.rhsIdx_val_of_single rfl i q
theorem rhs40_1 (i : S5000x40.Idx) (q : dot_S5000x128_S128x40_S5000x40_1_0_0_1_n_n.contr.Idx) :
    (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- Entry (p, q) of a [5000,128] × [128,40] product into zero: the sum over k of lhs[p,k] · rhs[k,q]. -/
theorem matmul40_at {φ₁ φ₂ : FTy} (lhs : FVec Ideal S5000x128 φ₁) (rhs : FVec Ideal S128x40 φ₂) (p : Fin 5000) (q : Fin 40) :
    matmul dot_S5000x128_S128x40_S5000x40_1_0_0_1_n_n none lhs rhs (constant (F := Ideal) S5000x40 .f32 0x00000000#32) (ix2 p q)
      = ∑ k : Fin 128, lhs (ix2 p k) * rhs (ix2 k q) := by
  refine (Ideal.matmul_constant_zero_apply dot_S5000x128_S128x40_S5000x40_1_0_0_1_n_n none lhs rhs (ix2 p q)).trans ?_
  rw [← Equiv.sum_comp (contrEquiv1 dot_S5000x128_S128x40_S5000x40_1_0_0_1_n_n 128 rfl rfl).symm]
  refine Finset.sum_congr rfl fun k _ => ?_
  have hk := contrEquiv1_symm_val dot_S5000x128_S128x40_S5000x40_1_0_0_1_n_n 128 rfl rfl k
  have el : dot_S5000x128_S128x40_S5000x40_1_0_0_1_n_n.lhsIdx (ix2 p q) ((contrEquiv1 dot_S5000x128_S128x40_S5000x40_1_0_0_1_n_n 128 rfl rfl).symm k) = ix2 p k := funext fun a => Fin.ext (by
    match a with
    | ⟨0, _⟩ => exact lhs40_0 _ _
    | ⟨1, _⟩ => exact (lhs40_1 _ _).trans hk)
  have er : dot_S5000x128_S128x40_S5000x40_1_0_0_1_n_n.rhsIdx (ix2 p q) ((contrEquiv1 dot_S5000x128_S128x40_S5000x40_1_0_0_1_n_n 128 rfl rfl).symm k) = ix2 k q := funext fun a => Fin.ext (by
    match a with
    | ⟨0, _⟩ => exact (rhs40_0 _ _).trans hk
    | ⟨1, _⟩ => exact rhs40_1 _ _)
  rw [el, er]

/-! ## The three payloads -/

/-- The scalar the clamp compares against is the zero word, the number 0. -/
theorem zero_word : Scalar.ofBits (F := Ideal) .f32 0x00000000#32 = (0 : EReal) := Ideal.ofBits_zero_f32

/-- First launch: the stored block is the clamped dense combine of the loaded blocks. -/
theorem pay0_eq (x0 x1 : Vec Ideal S5000x128 .f32) (x2 x3 : Vec Ideal S128x128 .f32) (x4 : Vec Ideal S1x128 .f32) :
    k0_pay1 (F := Ideal) x0 x1 x2 x3 x4 = denseRelu x0 x1 x2 x3 x4 := by
  funext j
  obtain ⟨p, q, rfl⟩ : ∃ (p : Fin 5000) (q : Fin 128), j = ix2 p q := ⟨j 0, j 1, eq_ix2 j⟩
  rw [denseRelu_apply]
  unfold k0_pay1
  simp only [shapeCast_self]
  rw [maximumf_apply, addf_apply, addf_apply, broadcast_apply, matmul128_at, matmul128_at, broadcastTo_1b_ab_apply]
  simp only [truncf_apply, zero_word]

/-- Second launch: the same body. -/
theorem pay1_eq (x0 x1 : Vec Ideal S5000x128 .f32) (x2 x3 : Vec Ideal S128x128 .f32) (x4 : Vec Ideal S1x128 .f32) :
    k1_pay1 (F := Ideal) x0 x1 x2 x3 x4 = denseRelu x0 x1 x2 x3 x4 := by
  funext j
  obtain ⟨p, q, rfl⟩ : ∃ (p : Fin 5000) (q : Fin 128), j = ix2 p q := ⟨j 0, j 1, eq_ix2 j⟩
  rw [denseRelu_apply]
  unfold k1_pay1
  simp only [shapeCast_self]
  rw [maximumf_apply, addf_apply, addf_apply, broadcast_apply, matmul128_at, matmul128_at, broadcastTo_1b_ab_apply]
  simp only [truncf_apply, zero_word]

/-- Third launch: 40 output columns and no clamp. -/
theorem pay2_eq (x0 x1 : Vec Ideal S5000x128 .f32) (x2 x3 : Vec Ideal S128x40 .f32) (x4 : Vec Ideal S1x40 .f32) :
    k2_pay1 (F := Ideal) x0 x1 x2 x3 x4 = dense x0 x1 x2 x3 x4 := by
  funext j
  obtain ⟨p, q, rfl⟩ : ∃ (p : Fin 5000) (q : Fin 40), j = ix2 p q := ⟨j 0, j 1, eq_ix2 j⟩
  rw [dense_apply]
  unfold k2_pay1
  simp only [shapeCast_self]
  rw [addf_apply, addf_apply, matmul40_at, matmul40_at, broadcastTo_1b_ab_apply]
  simp only [truncf_apply]

end Cert.KernelIdeal.Body

end
-- ==== Proof.KernelRegion.lean ====
/-
  What each launch of the dense kernel leaves in its result array: the dense combine of the five arrays it was launched on.

  A launch walks 20 grid points; point `t` fetches rows 5000·t … 5000·t + 4999 of `x` and of `agg`, the whole of `Ws`, `Wn` and
  the bias row, runs the body, and writes the 5000 result rows back to rows 5000·t … of the result array. The body's result is
  the dense combine of the blocks (the body module), a row of the combine depends only on the same row of `x` and `agg`, and the 20
  blocks tile the 100000 rows: so the array ends as the combine of the whole arrays. Stated for ANY contents `V` of the
  TensorCore's buffers at the launch, because the second and third launches start from what the earlier ones and the host
  operations between them left.
-/
import proofs.«174710_j26379689132538_1_alg».proof.Proof.GenP.KernelIdeal.Frame
import proofs.«174710_j26379689132538_1_alg».proof.Proof.KernelBody
import Idealize.ShloMosaic.Lib.Pipeline.Value

set_option maxRecDepth 16384

noncomputable section

namespace Cert.KernelIdeal.Regions

open Cert.KernelIdeal Cert.KernelIdeal.Gen Cert.KernelIdeal.GenP Cert.KernelIdeal.Body Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## First launch -/

/-- The printed index maps over the grid: the row-blocked windows sit at block `t`, the resident ones at block 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the clamped combine of the arrays the launch found: row `p` of the block is row
    `5000·t + p` of the arrays, the weights and the bias are read whole. -/
theorem flushed0 (c : Dev nD) (t : Fin cfg0.N) :
    (dat0 V c).flushed 5 t = ((cfg0.win 5).blk t).view.read (Elt Ideal)
      (denseRelu (V c main_arg0) (V c main_v20) (V c main_arg3) (V c main_arg4) (V c main_v21)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  rw [pay0_eq]
  obtain ⟨e00, e01, e10, e11, e20, e21, e30, e31, e40, e41, e50, e51⟩ := idx0 t
  funext j
  obtain ⟨p, q, rfl⟩ : ∃ (p : Fin 5000) (q : Fin 128), j = ix2 p q := ⟨j 0, j 1, eq_ix2 j⟩
  have ht : t.val < 20 := lt_of_lt_of_eq t.isLt N_0
  have hp : p.val < 5000 := p.isLt
  have hr : t.val * 5000 + p.val < 100000 := by omega
  have hemb : ((cfg0.win 5).blk t).view.emb (ix2 p q) = ix2 (⟨t.val * 5000 + p.val, hr⟩ : Fin 100000) q := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  show denseRelu (iblk0 V c 0 t) (iblk0 V c 1 t) (iblk0 V c 2 t) (iblk0 V c 3 t) (iblk0 V c 4 t) (ix2 p q)
    = denseRelu (V c main_arg0) (V c main_v20) (V c main_arg3) (V c main_arg4) (V c main_v21) (((cfg0.win 5).blk t).view.emb (ix2 p q))
  rw [hemb]
  refine denseRelu_congr (V c main_arg0) (V c main_v20) (iblk0 V c 0 t) (iblk0 V c 1 t) (V c main_arg3) (V c main_arg4) (iblk0 V c 2 t) (iblk0 V c 3 t)
    (V c main_v21) (iblk0 V c 4 t) p (⟨t.val * 5000 + p.val, hr⟩ : Fin 100000) q ?_ ?_ ?_ ?_ ?_
  · intro k
    show V c main_arg0 (((cfg0.win 0).blk t).view.emb (ix2 p k)) = V c main_arg0 (ix2 (⟨t.val * 5000 + p.val, hr⟩ : Fin 100000) k)
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · intro k
    show V c main_v20 (((cfg0.win 1).blk t).view.emb (ix2 p k)) = V c main_v20 (ix2 (⟨t.val * 5000 + p.val, hr⟩ : Fin 100000) k)
    refine congrArg (V c main_v20) (funext fun a => Fin.ext ?_)
    match a with
    | ⟨0, _⟩ => show win0_1.index t (0 : Fin 2) * 5000 + 1 * p.val = t.val * 5000 + p.val; omega
    | ⟨1, _⟩ => show win0_1.index t (1 : Fin 2) * 128 + 1 * k.val = k.val; omega
  · intro k
    show V c main_arg3 (((cfg0.win 2).blk t).view.emb (ix2 k q)) = V c main_arg3 (ix2 k q)
    refine congrArg (V c main_arg3) (funext fun a => Fin.ext ?_)
    match a with
    | ⟨0, _⟩ => show win0_2.index t (0 : Fin 2) * 128 + 1 * k.val = k.val; omega
    | ⟨1, _⟩ => show win0_2.index t (1 : Fin 2) * 128 + 1 * q.val = q.val; omega
  · intro k
    show V c main_arg4 (((cfg0.win 3).blk t).view.emb (ix2 k q)) = V c main_arg4 (ix2 k q)
    refine congrArg (V c main_arg4) (funext fun a => Fin.ext ?_)
    match a with
    | ⟨0, _⟩ => show win0_3.index t (0 : Fin 2) * 128 + 1 * k.val = k.val; omega
    | ⟨1, _⟩ => show win0_3.index t (1 : Fin 2) * 128 + 1 * q.val = q.val; omega
  · show V c main_v21 (((cfg0.win 4).blk t).view.emb (ix2 (0 : Fin 1) q)) = V c main_v21 (ix2 (0 : Fin 1) q)
    refine congrArg (V c main_v21) (funext fun a => Fin.ext ?_)
    match a with
    | ⟨0, _⟩ => show win0_4.index t (0 : Fin 2) * 1 + 1 * 0 = 0; omega
    | ⟨1, _⟩ => show win0_4.index t (1 : Fin 2) * 128 + 1 * q.val = q.val; omega

/-- An index of the result array is in point `t`'s block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v22).slice (win0_5.rect t)).set ↔ _
  rw [View.set_slice_whole, Rect.mem_set_unit]
  exact Iff.rfl

/-- The 20 blocks tile the rows: row `r` is in the block of point `r / 5000`. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : (i 0).val / 5000 < cfg0.N := lt_of_lt_of_eq (by omega : (i 0).val / 5000 < 20) N_0.symm
  obtain ⟨-, -, -, -, -, -, -, -, -, -, e50, e51⟩ := idx0 ⟨(i 0).val / 5000, hN⟩
  refine ⟨⟨(i 0).val / 5000, hN⟩, flush0_5 _, ?_⟩
  rw [mem_blk0]
  intro a
  match a with
  | ⟨0, _⟩ =>
    show win0_5.index ⟨(i 0).val / 5000, hN⟩ (0 : Fin 2) * 5000 ≤ (i 0).val ∧ (i 0).val < win0_5.index ⟨(i 0).val / 5000, hN⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, hN⟩ (1 : Fin 2) * 128 ≤ (i 1).val ∧ (i 1).val < win0_5.index ⟨(i 0).val / 5000, hN⟩ (1 : Fin 2) * 128 + 128
    rw [e51]; omega

/-- THE RESULT ARRAY after the launch: the clamped combine of the arrays the launch found. -/
theorem array0 (c : Dev nD) :
    (dat0 V c).arrAt 5 cfg0.N = denseRelu (V c main_arg0) (V c main_v20) (V c main_arg3) (V c main_arg4) (V c main_v21) :=
  (dat0 V c).arrAt_eq_of_cover 5 _ (fun t _ => flushed0 V c t) (cover0)

/-! ## Second launch -/

/-- The printed index maps over the grid: the row-blocked windows sit at block `t`, the resident ones at block 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the clamped combine of the arrays the launch found: row `p` of the block is row
    `5000·t + p` of the arrays, the weights and the bias are read whole. -/
theorem flushed1 (c : Dev nD) (t : Fin cfg1.N) :
    (dat1 V c).flushed 5 t = ((cfg1.win 5).blk t).view.read (Elt Ideal)
      (denseRelu (V c main_v22) (V c main_v34) (V c main_arg6) (V c main_arg7) (V c main_v35)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  rw [pay1_eq]
  obtain ⟨e00, e01, e10, e11, e20, e21, e30, e31, e40, e41, e50, e51⟩ := idx1 t
  funext j
  obtain ⟨p, q, rfl⟩ : ∃ (p : Fin 5000) (q : Fin 128), j = ix2 p q := ⟨j 0, j 1, eq_ix2 j⟩
  have ht : t.val < 20 := lt_of_lt_of_eq t.isLt N_1
  have hp : p.val < 5000 := p.isLt
  have hr : t.val * 5000 + p.val < 100000 := by omega
  have hemb : ((cfg1.win 5).blk t).view.emb (ix2 p q) = ix2 (⟨t.val * 5000 + p.val, hr⟩ : Fin 100000) q := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  show denseRelu (iblk1 V c 0 t) (iblk1 V c 1 t) (iblk1 V c 2 t) (iblk1 V c 3 t) (iblk1 V c 4 t) (ix2 p q)
    = denseRelu (V c main_v22) (V c main_v34) (V c main_arg6) (V c main_arg7) (V c main_v35) (((cfg1.win 5).blk t).view.emb (ix2 p q))
  rw [hemb]
  refine denseRelu_congr (V c main_v22) (V c main_v34) (iblk1 V c 0 t) (iblk1 V c 1 t) (V c main_arg6) (V c main_arg7) (iblk1 V c 2 t) (iblk1 V c 3 t)
    (V c main_v35) (iblk1 V c 4 t) p (⟨t.val * 5000 + p.val, hr⟩ : Fin 100000) q ?_ ?_ ?_ ?_ ?_
  · intro k
    show V c main_v22 (((cfg1.win 0).blk t).view.emb (ix2 p k)) = V c main_v22 (ix2 (⟨t.val * 5000 + p.val, hr⟩ : Fin 100000) k)
    refine congrArg (V c main_v22) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · intro k
    show V c main_v34 (((cfg1.win 1).blk t).view.emb (ix2 p k)) = V c main_v34 (ix2 (⟨t.val * 5000 + p.val, hr⟩ : Fin 100000) k)
    refine congrArg (V c main_v34) (funext fun a => Fin.ext ?_)
    match a with
    | ⟨0, _⟩ => show win1_1.index t (0 : Fin 2) * 5000 + 1 * p.val = t.val * 5000 + p.val; omega
    | ⟨1, _⟩ => show win1_1.index t (1 : Fin 2) * 128 + 1 * k.val = k.val; omega
  · intro k
    show V c main_arg6 (((cfg1.win 2).blk t).view.emb (ix2 k q)) = V c main_arg6 (ix2 k q)
    refine congrArg (V c main_arg6) (funext fun a => Fin.ext ?_)
    match a with
    | ⟨0, _⟩ => show win1_2.index t (0 : Fin 2) * 128 + 1 * k.val = k.val; omega
    | ⟨1, _⟩ => show win1_2.index t (1 : Fin 2) * 128 + 1 * q.val = q.val; omega
  · intro k
    show V c main_arg7 (((cfg1.win 3).blk t).view.emb (ix2 k q)) = V c main_arg7 (ix2 k q)
    refine congrArg (V c main_arg7) (funext fun a => Fin.ext ?_)
    match a with
    | ⟨0, _⟩ => show win1_3.index t (0 : Fin 2) * 128 + 1 * k.val = k.val; omega
    | ⟨1, _⟩ => show win1_3.index t (1 : Fin 2) * 128 + 1 * q.val = q.val; omega
  · show V c main_v35 (((cfg1.win 4).blk t).view.emb (ix2 (0 : Fin 1) q)) = V c main_v35 (ix2 (0 : Fin 1) q)
    refine congrArg (V c main_v35) (funext fun a => Fin.ext ?_)
    match a with
    | ⟨0, _⟩ => show win1_4.index t (0 : Fin 2) * 1 + 1 * 0 = 0; omega
    | ⟨1, _⟩ => show win1_4.index t (1 : Fin 2) * 128 + 1 * q.val = q.val; omega

/-- An index of the result array is in point `t`'s block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v36).slice (win1_5.rect t)).set ↔ _
  rw [View.set_slice_whole, Rect.mem_set_unit]
  exact Iff.rfl

/-- The 20 blocks tile the rows: row `r` is in the block of point `r / 5000`. -/
theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : (i 0).val / 5000 < cfg1.N := lt_of_lt_of_eq (by omega : (i 0).val / 5000 < 20) N_1.symm
  obtain ⟨-, -, -, -, -, -, -, -, -, -, e50, e51⟩ := idx1 ⟨(i 0).val / 5000, hN⟩
  refine ⟨⟨(i 0).val / 5000, hN⟩, flush1_5 _, ?_⟩
  rw [mem_blk1]
  intro a
  match a with
  | ⟨0, _⟩ =>
    show win1_5.index ⟨(i 0).val / 5000, hN⟩ (0 : Fin 2) * 5000 ≤ (i 0).val ∧ (i 0).val < win1_5.index ⟨(i 0).val / 5000, hN⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, hN⟩ (1 : Fin 2) * 128 ≤ (i 1).val ∧ (i 1).val < win1_5.index ⟨(i 0).val / 5000, hN⟩ (1 : Fin 2) * 128 + 128
    rw [e51]; omega

/-- THE RESULT ARRAY after the launch: the clamped combine of the arrays the launch found. -/
theorem array1 (c : Dev nD) :
    (dat1 V c).arrAt 5 cfg1.N = denseRelu (V c main_v22) (V c main_v34) (V c main_arg6) (V c main_arg7) (V c main_v35) :=
  (dat1 V c).arrAt_eq_of_cover 5 _ (fun t _ => flushed1 V c t) (cover1)

/-! ## Third launch -/

/-- The printed index maps over the grid: the row-blocked windows sit at block `t`, the resident ones at block 0. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is block `t` of the combine of the arrays the launch found: row `p` of the block is row
    `5000·t + p` of the arrays, the weights and the bias are read whole. -/
theorem flushed2 (c : Dev nD) (t : Fin cfg2.N) :
    (dat2 V c).flushed 5 t = ((cfg2.win 5).blk t).view.read (Elt Ideal)
      (dense (V c main_v36) (V c main_v48) (V c main_arg9) (V c main_arg10) (V c main_v49)) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x40) hz, View.ld_unit_zero (S := S1x40) hz]
  rw [pay2_eq]
  obtain ⟨e00, e01, e10, e11, e20, e21, e30, e31, e40, e41, e50, e51⟩ := idx2 t
  funext j
  obtain ⟨p, q, rfl⟩ : ∃ (p : Fin 5000) (q : Fin 40), j = ix2 p q := ⟨j 0, j 1, eq_ix2 j⟩
  have ht : t.val < 20 := lt_of_lt_of_eq t.isLt N_2
  have hp : p.val < 5000 := p.isLt
  have hr : t.val * 5000 + p.val < 100000 := by omega
  have hemb : ((cfg2.win 5).blk t).view.emb (ix2 p q) = ix2 (⟨t.val * 5000 + p.val, hr⟩ : Fin 100000) q := by
    funext a; apply Fin.ext
    match a with
    | ⟨0, _⟩ => show win2_5.index t (0 : Fin 2) * 5000 + 1 * p.val = t.val * 5000 + p.val; omega
    | ⟨1, _⟩ => show win2_5.index t (1 : Fin 2) * 40 + 1 * q.val = q.val; omega
  show dense (iblk2 V c 0 t) (iblk2 V c 1 t) (iblk2 V c 2 t) (iblk2 V c 3 t) (iblk2 V c 4 t) (ix2 p q)
    = dense (V c main_v36) (V c main_v48) (V c main_arg9) (V c main_arg10) (V c main_v49) (((cfg2.win 5).blk t).view.emb (ix2 p q))
  rw [hemb]
  refine dense_congr (V c main_v36) (V c main_v48) (iblk2 V c 0 t) (iblk2 V c 1 t) (V c main_arg9) (V c main_arg10) (iblk2 V c 2 t) (iblk2 V c 3 t)
    (V c main_v49) (iblk2 V c 4 t) p (⟨t.val * 5000 + p.val, hr⟩ : Fin 100000) q ?_ ?_ ?_ ?_ ?_
  · intro k
    show V c main_v36 (((cfg2.win 0).blk t).view.emb (ix2 p k)) = V c main_v36 (ix2 (⟨t.val * 5000 + p.val, hr⟩ : Fin 100000) k)
    refine congrArg (V c main_v36) (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  · intro k
    show V c main_v48 (((cfg2.win 1).blk t).view.emb (ix2 p k)) = V c main_v48 (ix2 (⟨t.val * 5000 + p.val, hr⟩ : Fin 100000) k)
    refine congrArg (V c main_v48) (funext fun a => Fin.ext ?_)
    match a with
    | ⟨0, _⟩ => show win2_1.index t (0 : Fin 2) * 5000 + 1 * p.val = t.val * 5000 + p.val; omega
    | ⟨1, _⟩ => show win2_1.index t (1 : Fin 2) * 128 + 1 * k.val = k.val; omega
  · intro k
    show V c main_arg9 (((cfg2.win 2).blk t).view.emb (ix2 k q)) = V c main_arg9 (ix2 k q)
    refine congrArg (V c main_arg9) (funext fun a => Fin.ext ?_)
    match a with
    | ⟨0, _⟩ => show win2_2.index t (0 : Fin 2) * 128 + 1 * k.val = k.val; omega
    | ⟨1, _⟩ => show win2_2.index t (1 : Fin 2) * 40 + 1 * q.val = q.val; omega
  · intro k
    show V c main_arg10 (((cfg2.win 3).blk t).view.emb (ix2 k q)) = V c main_arg10 (ix2 k q)
    refine congrArg (V c main_arg10) (funext fun a => Fin.ext ?_)
    match a with
    | ⟨0, _⟩ => show win2_3.index t (0 : Fin 2) * 128 + 1 * k.val = k.val; omega
    | ⟨1, _⟩ => show win2_3.index t (1 : Fin 2) * 40 + 1 * q.val = q.val; omega
  · show V c main_v49 (((cfg2.win 4).blk t).view.emb (ix2 (0 : Fin 1) q)) = V c main_v49 (ix2 (0 : Fin 1) q)
    refine congrArg (V c main_v49) (funext fun a => Fin.ext ?_)
    match a with
    | ⟨0, _⟩ => show win2_4.index t (0 : Fin 2) * 1 + 1 * 0 = 0; omega
    | ⟨1, _⟩ => show win2_4.index t (1 : Fin 2) * 40 + 1 * q.val = q.val; omega

/-- An index of the result array is in point `t`'s block iff each coordinate is in the block's range on its axis. -/
theorem mem_blk2 (t : Fin cfg2.N) (i : S100000x40.Idx) :
    i ∈ ((cfg2.win 5).blk t).view.set ↔ ∀ a : Fin 2, win2_5.index t a * S5000x40.size a ≤ (i a).val ∧ (i a).val < win2_5.index t a * S5000x40.size a + S5000x40.size a := by
  show i ∈ ((View.whole main_v50).slice (win2_5.rect t)).set ↔ _
  rw [View.set_slice_whole, Rect.mem_set_unit]
  exact Iff.rfl

/-- The 20 blocks tile the rows: row `r` is in the block of point `r / 5000`. -/
theorem cover2 (i : S100000x40.Idx) : ∃ t : Fin cfg2.N, (cfg2.win 5).flush t = true ∧ i ∈ ((cfg2.win 5).blk t).view.set := by
  have hi0 : (i 0).val < 100000 := (i 0).isLt
  have hi1 : (i 1).val < 40 := (i 1).isLt
  have hN : (i 0).val / 5000 < cfg2.N := lt_of_lt_of_eq (by omega : (i 0).val / 5000 < 20) N_2.symm
  obtain ⟨-, -, -, -, -, -, -, -, -, -, e50, e51⟩ := idx2 ⟨(i 0).val / 5000, hN⟩
  refine ⟨⟨(i 0).val / 5000, hN⟩, flush2_5 _, ?_⟩
  rw [mem_blk2]
  intro a
  match a with
  | ⟨0, _⟩ =>
    show win2_5.index ⟨(i 0).val / 5000, hN⟩ (0 : Fin 2) * 5000 ≤ (i 0).val ∧ (i 0).val < win2_5.index ⟨(i 0).val / 5000, hN⟩ (0 : Fin 2) * 5000 + 5000
    rw [e50]; show (i 0).val / 5000 * 5000 ≤ (i 0).val ∧ (i 0).val < (i 0).val / 5000 * 5000 + 5000; omega
  | ⟨1, _⟩ =>
    show win2_5.index ⟨(i 0).val / 5000, hN⟩ (1 : Fin 2) * 40 ≤ (i 1).val ∧ (i 1).val < win2_5.index ⟨(i 0).val / 5000, hN⟩ (1 : Fin 2) * 40 + 40
    rw [e51]; omega

/-- THE RESULT ARRAY after the launch: the combine of the arrays the launch found. -/
theorem array2 (c : Dev nD) :
    (dat2 V c).arrAt 5 cfg2.N = dense (V c main_v36) (V c main_v48) (V c main_arg9) (V c main_arg10) (V c main_v49) :=
  (dat2 V c).arrAt_eq_of_cover 5 _ (fun t _ => flushed2 V c t) (cover2)

end Cert.KernelIdeal.Regions

end
-- ==== Proof.KernelGlue.lean ====
/-
  The host computations around the launches, as two functions of whole arrays.

  `invDeg dst` is, per node, one over the larger of its in-degree and one: the in-degree is the scatter-add of a one per edge into
  the edge's destination; the result is kept as a column [100000, 1].
  `meanAgg x src dst inv` is the averaged neighbour feature array: every edge gathers row `src` of `x` (a negative index counted
  from the end), the gathered rows are scatter-added into the rows `dst`, and row `r` is scaled by `inv r`.
  Both are kept opaque: the kernel program and the reference apply the very same operations, so no property of gather or
  scatter-add is ever needed, only that the two sides apply them to equal arrays.
-/
import proofs.«174710_j26379689132538_1_alg».proof.Proof.Gen.KernelIdeal
import Idealize.ShloMosaic.PureOps.Ideal

noncomputable section

namespace Cert.KernelIdeal.Glue

open Cert.KernelIdeal Cert.KernelIdeal.Gen
open Idealize.ShloMosaic Idealize.ShloMosaic.TcCoe Idealize.SL.Sem

/-- One over max(in-degree, 1), per node, as a column. -/
def invDeg (dst : (⟨S1600000, .i32⟩ : BufTy).Contents (Elt Ideal)) : (⟨S100000x1, .f32⟩ : BufTy).Contents (Elt Ideal) :=
  broadcastInDim S100000x1 ![0] bcast_S100000_S100000x1_0
    (Host.divf (F := Ideal) (broadcastInDim S100000 ![] bcast_S_S100000 (constant (F := Ideal) S_ .f32 0x3F800000#32))
      (maximumf
        (Host.scatterAdd (F := Ideal) scatter_S100000_S1600000x1_S1600000_n_0_0_1
          (broadcastInDim S100000 ![] bcast_S_S100000 (constant (F := Ideal) S_ .f32 0x00000000#32))
          (broadcastInDim S1600000x1 ![0] bcast_S1600000_S1600000x1_0 dst)
          (broadcastInDim S1600000 ![] bcast_S_S1600000 (constant (F := Ideal) S_ .f32 0x3F800000#32)))
        (broadcastInDim S100000 ![] bcast_S_S100000 (constant (F := Ideal) S_ .f32 0x3F800000#32))))

/-- The neighbour features gathered along the edges, summed into the destinations and scaled row by row. -/
def meanAgg (x : (⟨S100000x128, .f32⟩ : BufTy).Contents (Elt Ideal)) (src dst : (⟨S1600000, .i32⟩ : BufTy).Contents (Elt Ideal))
    (inv : (⟨S100000x1, .f32⟩ : BufTy).Contents (Elt Ideal)) : (⟨S100000x128, .f32⟩ : BufTy).Contents (Elt Ideal) :=
  mulf
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 x
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1 inv)

end Cert.KernelIdeal.Glue

end
-- ==== Proof.Net.lean ====
/-
  The network as one function of the twelve argument arrays.

  A hidden layer takes the node features, averages them over each node's in-neighbours (`meanAgg`, scaled by the inverse
  in-degrees), and applies the clamped dense combine with the layer's two weight matrices and its bias (as a row). The network is
  two hidden layers followed by an output layer of the same form without the clamp and with 40 columns. The edge lists and the
  inverse degrees are the same at every layer.
-/
import proofs.«174710_j26379689132538_1_alg».proof.Proof.KernelGlue
import proofs.«174710_j26379689132538_1_alg».proof.Proof.Dense

noncomputable section

namespace Cert.KernelIdeal.Glue

open Cert.KernelIdeal Cert.KernelIdeal.Gen Cert.Sage
open Idealize.ShloMosaic Idealize.ShloMosaic.TcCoe Idealize.SL.Sem

/-- One hidden layer: the clamped dense combine of the features and their averaged neighbours. -/
def hiddenLayer (x : (⟨S100000x128, .f32⟩ : BufTy).Contents (Elt Ideal)) (src dst : (⟨S1600000, .i32⟩ : BufTy).Contents (Elt Ideal))
    (ws wn : (⟨S128x128, .f32⟩ : BufTy).Contents (Elt Ideal)) (b : (⟨S128, .f32⟩ : BufTy).Contents (Elt Ideal)) :
    (⟨S100000x128, .f32⟩ : BufTy).Contents (Elt Ideal) :=
  denseRelu x (meanAgg x src dst (invDeg dst)) ws wn (shapeCast S1x128 b shapeCasts_S128_S1x128)

/-- The output layer: the dense combine, 40 columns, no clamp. -/
def outputLayer (x : (⟨S100000x128, .f32⟩ : BufTy).Contents (Elt Ideal)) (src dst : (⟨S1600000, .i32⟩ : BufTy).Contents (Elt Ideal))
    (ws wn : (⟨S128x40, .f32⟩ : BufTy).Contents (Elt Ideal)) (b : (⟨S40, .f32⟩ : BufTy).Contents (Elt Ideal)) :
    (⟨S100000x40, .f32⟩ : BufTy).Contents (Elt Ideal) :=
  dense x (meanAgg x src dst (invDeg dst)) ws wn (shapeCast S1x40 b shapeCasts_S40_S1x40)

/-- The whole network. -/
def net (a0 : (⟨S100000x128, .f32⟩ : BufTy).Contents (Elt Ideal)) (a1 a2 : (⟨S1600000, .i32⟩ : BufTy).Contents (Elt Ideal))
    (a3 a4 : (⟨S128x128, .f32⟩ : BufTy).Contents (Elt Ideal)) (a5 : (⟨S128, .f32⟩ : BufTy).Contents (Elt Ideal))
    (a6 a7 : (⟨S128x128, .f32⟩ : BufTy).Contents (Elt Ideal)) (a8 : (⟨S128, .f32⟩ : BufTy).Contents (Elt Ideal))
    (a9 a10 : (⟨S128x40, .f32⟩ : BufTy).Contents (Elt Ideal)) (a11 : (⟨S40, .f32⟩ : BufTy).Contents (Elt Ideal)) :
    (⟨S100000x40, .f32⟩ : BufTy).Contents (Elt Ideal) :=
  outputLayer (hiddenLayer (hiddenLayer a0 a1 a2 a3 a4 a5) a1 a2 a6 a7 a8) a1 a2 a9 a10 a11

end Cert.KernelIdeal.Glue

end
-- ==== Proof.KernelFold.lean ====
/-
  The fold through the six segments, read back to the arguments.

  `W1 … W6` are the contents of a TensorCore's buffers after each segment (a stretch of host operations, or a launch). Reading
  one buffer back through the fold takes three kinds of step: a host operation's own result is its function of its operands'
  contents before it; a buffer a stretch does not write, and a buffer that is not a launch's array, keeps its contents; and a
  launch's result array is the dense combine of its five operand arrays (the launch module). Walking back from the result
  buffer: the third launch combines the second launch's result with its averaged neighbours, the second the first's, the first
  the input features'; the edge lists, the weights, the biases and the inverse degrees are read unchanged at every level.
-/
import proofs.«174710_j26379689132538_1_alg».proof.Proof.KernelRegion
import proofs.«174710_j26379689132538_1_alg».proof.Proof.Net
import Idealize.ShloMosaic.Lib.StableHlo.Run

set_option maxRecDepth 16384

noncomputable section

namespace Cert.KernelIdeal.Fold

open Cert.KernelIdeal Cert.KernelIdeal.Gen Cert.KernelIdeal.GenP Cert.KernelIdeal.Regions Cert.KernelIdeal.Glue Cert.Sage
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- A stretch of host operations leaves a buffer none of them writes. -/
macro "host_keeps" : tactic => `(tactic| (
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## After the first stretch of host operations -/

theorem w1_a0 : W1 m ρ c (Proc.devRef .tc main_arg0) = m ((c : Thread nD τ).loc main_arg0) := by
  show StableHlo.after hostOps0 (W0 m ρ c) (Proc.devRef .tc main_arg0) = W0 m ρ c (Proc.devRef .tc main_arg0)
  host_keeps
theorem w1_a1 : W1 m ρ c (Proc.devRef .tc main_arg1) = m ((c : Thread nD τ).loc main_arg1) := by
  show StableHlo.after hostOps0 (W0 m ρ c) (Proc.devRef .tc main_arg1) = W0 m ρ c (Proc.devRef .tc main_arg1)
  host_keeps
theorem w1_a2 : W1 m ρ c (Proc.devRef .tc main_arg2) = m ((c : Thread nD τ).loc main_arg2) := by
  show StableHlo.after hostOps0 (W0 m ρ c) (Proc.devRef .tc main_arg2) = W0 m ρ c (Proc.devRef .tc main_arg2)
  host_keeps
theorem w1_a3 : W1 m ρ c (Proc.devRef .tc main_arg3) = m ((c : Thread nD τ).loc main_arg3) := by
  show StableHlo.after hostOps0 (W0 m ρ c) (Proc.devRef .tc main_arg3) = W0 m ρ c (Proc.devRef .tc main_arg3)
  host_keeps
theorem w1_a4 : W1 m ρ c (Proc.devRef .tc main_arg4) = m ((c : Thread nD τ).loc main_arg4) := by
  show StableHlo.after hostOps0 (W0 m ρ c) (Proc.devRef .tc main_arg4) = W0 m ρ c (Proc.devRef .tc main_arg4)
  host_keeps
theorem w1_a6 : W1 m ρ c (Proc.devRef .tc main_arg6) = m ((c : Thread nD τ).loc main_arg6) := by
  show StableHlo.after hostOps0 (W0 m ρ c) (Proc.devRef .tc main_arg6) = W0 m ρ c (Proc.devRef .tc main_arg6)
  host_keeps
theorem w1_a7 : W1 m ρ c (Proc.devRef .tc main_arg7) = m ((c : Thread nD τ).loc main_arg7) := by
  show StableHlo.after hostOps0 (W0 m ρ c) (Proc.devRef .tc main_arg7) = W0 m ρ c (Proc.devRef .tc main_arg7)
  host_keeps
theorem w1_a8 : W1 m ρ c (Proc.devRef .tc main_arg8) = m ((c : Thread nD τ).loc main_arg8) := by
  show StableHlo.after hostOps0 (W0 m ρ c) (Proc.devRef .tc main_arg8) = W0 m ρ c (Proc.devRef .tc main_arg8)
  host_keeps
theorem w1_a9 : W1 m ρ c (Proc.devRef .tc main_arg9) = m ((c : Thread nD τ).loc main_arg9) := by
  show StableHlo.after hostOps0 (W0 m ρ c) (Proc.devRef .tc main_arg9) = W0 m ρ c (Proc.devRef .tc main_arg9)
  host_keeps
theorem w1_a10 : W1 m ρ c (Proc.devRef .tc main_arg10) = m ((c : Thread nD τ).loc main_arg10) := by
  show StableHlo.after hostOps0 (W0 m ρ c) (Proc.devRef .tc main_arg10) = W0 m ρ c (Proc.devRef .tc main_arg10)
  host_keeps
theorem w1_a11 : W1 m ρ c (Proc.devRef .tc main_arg11) = m ((c : Thread nD τ).loc main_arg11) := by
  show StableHlo.after hostOps0 (W0 m ρ c) (Proc.devRef .tc main_arg11) = W0 m ρ c (Proc.devRef .tc main_arg11)
  host_keeps

theorem w1_v8 : W1 m ρ c (Proc.devRef .tc main_v8) = invDeg (m ((c : Thread nD τ).loc main_arg2)) := by
  show StableHlo.after hostOps0 (W0 m ρ c) (Proc.devRef .tc main_v8) = _
  after_results_simp
  rfl

theorem w1_v20 : W1 m ρ c (Proc.devRef .tc main_v20) = meanAgg (m ((c : Thread nD τ).loc main_arg0)) (m ((c : Thread nD τ).loc main_arg1)) (m ((c : Thread nD τ).loc main_arg2)) (invDeg (m ((c : Thread nD τ).loc main_arg2))) := by
  show StableHlo.after hostOps0 (W0 m ρ c) (Proc.devRef .tc main_v20) = _
  after_results_simp
  rfl

theorem w1_v21 : W1 m ρ c (Proc.devRef .tc main_v21) = shapeCast S1x128 (m ((c : Thread nD τ).loc main_arg5)) shapeCasts_S128_S1x128 := by
  show StableHlo.after hostOps0 (W0 m ρ c) (Proc.devRef .tc main_v21) = _
  after_results_simp
  rfl

/-! ## After the first launch -/

/-- The first launch's result array is the first hidden layer of the input features. -/
theorem w2_v22 : W2 m ρ c (Proc.devRef .tc main_v22) = hiddenLayer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 5).trans ((array0 (V1 m ρ) c).trans ?_)
  show denseRelu (W1 m ρ c (Proc.devRef .tc main_arg0)) (W1 m ρ c (Proc.devRef .tc main_v20)) (W1 m ρ c (Proc.devRef .tc main_arg3))
      (W1 m ρ c (Proc.devRef .tc main_arg4)) (W1 m ρ c (Proc.devRef .tc main_v21)) = _
  rw [w1_a0, w1_v20, w1_a3, w1_a4, w1_v21]
  rfl

theorem w2_a1 : W2 m ρ c (Proc.devRef .tc main_arg1) = m ((c : Thread nD τ).loc main_arg1) :=
  (W2_of_ne m ρ c main_arg1 (by decide)).trans (w1_a1 m ρ c)
theorem w2_a2 : W2 m ρ c (Proc.devRef .tc main_arg2) = m ((c : Thread nD τ).loc main_arg2) :=
  (W2_of_ne m ρ c main_arg2 (by decide)).trans (w1_a2 m ρ c)
theorem w2_a6 : W2 m ρ c (Proc.devRef .tc main_arg6) = m ((c : Thread nD τ).loc main_arg6) :=
  (W2_of_ne m ρ c main_arg6 (by decide)).trans (w1_a6 m ρ c)
theorem w2_a7 : W2 m ρ c (Proc.devRef .tc main_arg7) = m ((c : Thread nD τ).loc main_arg7) :=
  (W2_of_ne m ρ c main_arg7 (by decide)).trans (w1_a7 m ρ c)
theorem w2_a8 : W2 m ρ c (Proc.devRef .tc main_arg8) = m ((c : Thread nD τ).loc main_arg8) :=
  (W2_of_ne m ρ c main_arg8 (by decide)).trans (w1_a8 m ρ c)
theorem w2_a9 : W2 m ρ c (Proc.devRef .tc main_arg9) = m ((c : Thread nD τ).loc main_arg9) :=
  (W2_of_ne m ρ c main_arg9 (by decide)).trans (w1_a9 m ρ c)
theorem w2_a10 : W2 m ρ c (Proc.devRef .tc main_arg10) = m ((c : Thread nD τ).loc main_arg10) :=
  (W2_of_ne m ρ c main_arg10 (by decide)).trans (w1_a10 m ρ c)
theorem w2_a11 : W2 m ρ c (Proc.devRef .tc main_arg11) = m ((c : Thread nD τ).loc main_arg11) :=
  (W2_of_ne m ρ c main_arg11 (by decide)).trans (w1_a11 m ρ c)
theorem w2_v8 : W2 m ρ c (Proc.devRef .tc main_v8) = invDeg (m ((c : Thread nD τ).loc main_arg2)) :=
  (W2_of_ne m ρ c main_v8 (by decide)).trans (w1_v8 m ρ c)

/-! ## After the second stretch of host operations -/

theorem w3_v22 : W3 m ρ c (Proc.devRef .tc main_v22) = hiddenLayer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (show StableHlo.after hostOps1 (W2 m ρ c) (Proc.devRef .tc main_v22) = W2 m ρ c (Proc.devRef .tc main_v22) by host_keeps).trans (w2_v22 m ρ c)

theorem w3_v34 : W3 m ρ c (Proc.devRef .tc main_v34) = meanAgg (hiddenLayer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) (invDeg (m ((c : Thread nD τ).loc main_arg2))) := by
  show StableHlo.after hostOps1 (W2 m ρ c) (Proc.devRef .tc main_v34) = _
  after_results_simp
  rw [w2_v22, w2_a1, w2_a2, w2_v8]
  rfl

theorem w3_v35 : W3 m ρ c (Proc.devRef .tc main_v35) = shapeCast S1x128 (m ((c : Thread nD τ).loc main_arg8)) shapeCasts_S128_S1x128 := by
  show StableHlo.after hostOps1 (W2 m ρ c) (Proc.devRef .tc main_v35) = _
  after_results_simp
  rw [w2_a8]
  rfl

theorem w3_a1 : W3 m ρ c (Proc.devRef .tc main_arg1) = m ((c : Thread nD τ).loc main_arg1) :=
  (show StableHlo.after hostOps1 (W2 m ρ c) (Proc.devRef .tc main_arg1) = W2 m ρ c (Proc.devRef .tc main_arg1) by host_keeps).trans (w2_a1 m ρ c)
theorem w3_a2 : W3 m ρ c (Proc.devRef .tc main_arg2) = m ((c : Thread nD τ).loc main_arg2) :=
  (show StableHlo.after hostOps1 (W2 m ρ c) (Proc.devRef .tc main_arg2) = W2 m ρ c (Proc.devRef .tc main_arg2) by host_keeps).trans (w2_a2 m ρ c)
theorem w3_a6 : W3 m ρ c (Proc.devRef .tc main_arg6) = m ((c : Thread nD τ).loc main_arg6) :=
  (show StableHlo.after hostOps1 (W2 m ρ c) (Proc.devRef .tc main_arg6) = W2 m ρ c (Proc.devRef .tc main_arg6) by host_keeps).trans (w2_a6 m ρ c)
theorem w3_a7 : W3 m ρ c (Proc.devRef .tc main_arg7) = m ((c : Thread nD τ).loc main_arg7) :=
  (show StableHlo.after hostOps1 (W2 m ρ c) (Proc.devRef .tc main_arg7) = W2 m ρ c (Proc.devRef .tc main_arg7) by host_keeps).trans (w2_a7 m ρ c)
theorem w3_a9 : W3 m ρ c (Proc.devRef .tc main_arg9) = m ((c : Thread nD τ).loc main_arg9) :=
  (show StableHlo.after hostOps1 (W2 m ρ c) (Proc.devRef .tc main_arg9) = W2 m ρ c (Proc.devRef .tc main_arg9) by host_keeps).trans (w2_a9 m ρ c)
theorem w3_a10 : W3 m ρ c (Proc.devRef .tc main_arg10) = m ((c : Thread nD τ).loc main_arg10) :=
  (show StableHlo.after hostOps1 (W2 m ρ c) (Proc.devRef .tc main_arg10) = W2 m ρ c (Proc.devRef .tc main_arg10) by host_keeps).trans (w2_a10 m ρ c)
theorem w3_a11 : W3 m ρ c (Proc.devRef .tc main_arg11) = m ((c : Thread nD τ).loc main_arg11) :=
  (show StableHlo.after hostOps1 (W2 m ρ c) (Proc.devRef .tc main_arg11) = W2 m ρ c (Proc.devRef .tc main_arg11) by host_keeps).trans (w2_a11 m ρ c)
theorem w3_v8 : W3 m ρ c (Proc.devRef .tc main_v8) = invDeg (m ((c : Thread nD τ).loc main_arg2)) :=
  (show StableHlo.after hostOps1 (W2 m ρ c) (Proc.devRef .tc main_v8) = W2 m ρ c (Proc.devRef .tc main_v8) by host_keeps).trans (w2_v8 m ρ c)

/-! ## After the second launch -/

/-- The second launch's result array is the second hidden layer. -/
theorem w4_v36 : W4 m ρ c (Proc.devRef .tc main_v36) = hiddenLayer (hiddenLayer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) (m ((c : Thread nD τ).loc main_arg6)) (m ((c : Thread nD τ).loc main_arg7)) (m ((c : Thread nD τ).loc main_arg8)) := by
  refine (W4_arr m ρ c 5).trans ((array1 (V3 m ρ) c).trans ?_)
  show denseRelu (W3 m ρ c (Proc.devRef .tc main_v22)) (W3 m ρ c (Proc.devRef .tc main_v34)) (W3 m ρ c (Proc.devRef .tc main_arg6))
      (W3 m ρ c (Proc.devRef .tc main_arg7)) (W3 m ρ c (Proc.devRef .tc main_v35)) = _
  rw [w3_v22, w3_v34, w3_a6, w3_a7, w3_v35]
  rfl

theorem w4_a1 : W4 m ρ c (Proc.devRef .tc main_arg1) = m ((c : Thread nD τ).loc main_arg1) :=
  (W4_of_ne m ρ c main_arg1 (by decide)).trans (w3_a1 m ρ c)
theorem w4_a2 : W4 m ρ c (Proc.devRef .tc main_arg2) = m ((c : Thread nD τ).loc main_arg2) :=
  (W4_of_ne m ρ c main_arg2 (by decide)).trans (w3_a2 m ρ c)
theorem w4_a9 : W4 m ρ c (Proc.devRef .tc main_arg9) = m ((c : Thread nD τ).loc main_arg9) :=
  (W4_of_ne m ρ c main_arg9 (by decide)).trans (w3_a9 m ρ c)
theorem w4_a10 : W4 m ρ c (Proc.devRef .tc main_arg10) = m ((c : Thread nD τ).loc main_arg10) :=
  (W4_of_ne m ρ c main_arg10 (by decide)).trans (w3_a10 m ρ c)
theorem w4_a11 : W4 m ρ c (Proc.devRef .tc main_arg11) = m ((c : Thread nD τ).loc main_arg11) :=
  (W4_of_ne m ρ c main_arg11 (by decide)).trans (w3_a11 m ρ c)
theorem w4_v8 : W4 m ρ c (Proc.devRef .tc main_v8) = invDeg (m ((c : Thread nD τ).loc main_arg2)) :=
  (W4_of_ne m ρ c main_v8 (by decide)).trans (w3_v8 m ρ c)

/-! ## After the third stretch of host operations -/

theorem w5_v36 : W5 m ρ c (Proc.devRef .tc main_v36) = hiddenLayer (hiddenLayer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) (m ((c : Thread nD τ).loc main_arg6)) (m ((c : Thread nD τ).loc main_arg7)) (m ((c : Thread nD τ).loc main_arg8)) :=
  (show StableHlo.after hostOps2 (W4 m ρ c) (Proc.devRef .tc main_v36) = W4 m ρ c (Proc.devRef .tc main_v36) by host_keeps).trans (w4_v36 m ρ c)

theorem w5_v48 : W5 m ρ c (Proc.devRef .tc main_v48) = meanAgg (hiddenLayer (hiddenLayer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) (m ((c : Thread nD τ).loc main_arg6)) (m ((c : Thread nD τ).loc main_arg7)) (m ((c : Thread nD τ).loc main_arg8))) (m ((c : Thread nD τ).loc main_arg1)) (m ((c : Thread nD τ).loc main_arg2)) (invDeg (m ((c : Thread nD τ).loc main_arg2))) := by
  show StableHlo.after hostOps2 (W4 m ρ c) (Proc.devRef .tc main_v48) = _
  after_results_simp
  rw [w4_v36, w4_a1, w4_a2, w4_v8]
  rfl

theorem w5_v49 : W5 m ρ c (Proc.devRef .tc main_v49) = shapeCast S1x40 (m ((c : Thread nD τ).loc main_arg11)) shapeCasts_S40_S1x40 := by
  show StableHlo.after hostOps2 (W4 m ρ c) (Proc.devRef .tc main_v49) = _
  after_results_simp
  rw [w4_a11]
  rfl

theorem w5_a9 : W5 m ρ c (Proc.devRef .tc main_arg9) = m ((c : Thread nD τ).loc main_arg9) :=
  (show StableHlo.after hostOps2 (W4 m ρ c) (Proc.devRef .tc main_arg9) = W4 m ρ c (Proc.devRef .tc main_arg9) by host_keeps).trans (w4_a9 m ρ c)
theorem w5_a10 : W5 m ρ c (Proc.devRef .tc main_arg10) = m ((c : Thread nD τ).loc main_arg10) :=
  (show StableHlo.after hostOps2 (W4 m ρ c) (Proc.devRef .tc main_arg10) = W4 m ρ c (Proc.devRef .tc main_arg10) by host_keeps).trans (w4_a10 m ρ c)

/-! ## After the third launch: the result -/

/-- The result buffer at the return holds the network of the twelve arguments. -/
theorem result : W6 m ρ c (Proc.devRef .tc main_v50)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 5).trans ((array2 (V5 m ρ) c).trans ?_)
  show dense (W5 m ρ c (Proc.devRef .tc main_v36)) (W5 m ρ c (Proc.devRef .tc main_v48)) (W5 m ρ c (Proc.devRef .tc main_arg9))
      (W5 m ρ c (Proc.devRef .tc main_arg10)) (W5 m ρ c (Proc.devRef .tc main_v49)) = _
  rw [w5_v36, w5_v48, w5_a9, w5_a10, w5_v49]
  rfl

end Cert.KernelIdeal.Fold

end
-- ==== Proof.RefLayers.lean ====
/-
  The reference's three layers are the same dense combines.

  The reference computes a layer with the host's own operations: two `dot_general`s contracting the 128 feature columns, their
  sum, the bias broadcast first to one row and then down the 100000 rows, and — in the first two layers — the larger of the entry
  and a broadcast zero. Entry by entry that is the dense combine of `Dense.lean`: each product entry is the sum over the 128
  columns, the doubly broadcast bias at (r, q) is the bias at q, and the broadcast zero is 0. The bias row is stated as the
  [128] → [1, 128] reshape of the bias vector, which at (0, q) is again the bias at q; this is the row the kernel's launches are
  given.
-/
import proofs.«174710_j26379689132538_1_alg».proof.Proof.Gen.ReferenceIdeal.Run
import proofs.«174710_j26379689132538_1_alg».proof.Proof.Gen.KernelIdeal
import proofs.«174710_j26379689132538_1_alg».proof.Proof.Dense
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.Layers

open Cert.ReferenceIdeal Cert.ReferenceIdeal.Gen Cert.Sage
open Idealize.ShloMosaic Idealize.ShloMosaic.TcCoe Idealize.ShloMosaic.ValueIdx Idealize.SL.Sem

/-! ## The host's products read at an entry -/

theorem lhs128_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs128_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs128_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs128_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- Entry (r, q) of the host's [100000,128] × [128,128] product: the sum over k of lhs[r,k] · rhs[k,q]. -/
theorem dot128_at (lhs : FVec Ideal S100000x128 .f32) (rhs : FVec Ideal S128x128 .f32) (r : Fin 100000) (q : Fin 128) :
    Host.dotGeneral dot_S100000x128_S128x128_S100000x128_1_0_0_1_n_n none lhs rhs (ix2 r q) = ∑ k : Fin 128, lhs (ix2 r k) * rhs (ix2 k q) := by
  simp only [Host.dotGeneral]
  refine (Ideal.dotGeneral_apply dot_S100000x128_S128x128_S100000x128_1_0_0_1_n_n none _ lhs rhs (ix2 r q)).trans ?_
  rw [← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 r q) ((contrEquiv1 dot_S100000x128_S128x128_S100000x128_1_0_0_1_n_n 128 rfl rfl).symm k) = ix2 r k := funext fun a => Fin.ext (by
    match a with
    | ⟨0, _⟩ => exact lhs128_0 _ _
    | ⟨1, _⟩ => exact (lhs128_1 _ _).trans hk)
  have er : dot_S100000x128_S128x128_S100000x128_1_0_0_1_n_n.rhsIdx (ix2 r q) ((contrEquiv1 dot_S100000x128_S128x128_S100000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

theorem lhs40_0 (i : S100000x40.Idx) (q : dot_S100000x128_S128x40_S100000x40_1_0_0_1_n_n.contr.Idx) :
    (dot_S100000x128_S128x40_S100000x40_1_0_0_1_n_n.lhsIdx i q 0).val = (i 0).val := by
  unfold DotDims.lhsIdx
  rw [dif_neg (show ¬(0 : Fin S100000x128.rank) ∈ dot_S100000x128_S128x40_S100000x40_1_0_0_1_n_n.lhsBatch by decide), dif_pos (show (0 : Fin S100000x128.rank) ∈ dot_S100000x128_S128x40_S100000x40_1_0_0_1_n_n.lhsNonContracting by decide)]
  rfl
theorem lhs40_1 (i : S100000x40.Idx) (q : dot_S100000x128_S128x40_S100000x40_1_0_0_1_n_n.contr.Idx) :
    (dot_S100000x128_S128x40_S100000x40_1_0_0_1_n_n.lhsIdx i q 1).val = (q ⟨0, by decide⟩).val :=
  dot_S100000x128_S128x40_S100000x40_1_0_0_1_n_n.lhsIdx_val_of_single rfl i q
theorem rhs40_0 (i : S100000x40.Idx) (q : dot_S100000x128_S128x40_S100000x40_1_0_0_1_n_n.contr.Idx) :
    (dot_S100000x128_S128x40_S100000x40_1_0_0_1_n_n.rhsIdx i q 0).val = (q ⟨0, by decide⟩).val :=
  dot_S100000x128_S128x40_S100000x40_1_0_0_1_n_n.rhsIdx_val_of_single rfl i q
theorem rhs40_1 (i : S100000x40.Idx) (q : dot_S100000x128_S128x40_S100000x40_1_0_0_1_n_n.contr.Idx) :
    (dot_S100000x128_S128x40_S100000x40_1_0_0_1_n_n.rhsIdx i q 1).val = (i 1).val := by
  unfold DotDims.rhsIdx
  rw [dif_neg (show ¬(1 : Fin S128x40.rank) ∈ dot_S100000x128_S128x40_S100000x40_1_0_0_1_n_n.rhsBatch by decide), dif_pos (show (1 : Fin S128x40.rank) ∈ dot_S100000x128_S128x40_S100000x40_1_0_0_1_n_n.rhsNonContracting by decide)]
  rfl

/-- Entry (r, q) of the host's [100000,128] × [128,40] product: the sum over k of lhs[r,k] · rhs[k,q]. -/
theorem dot40_at (lhs : FVec Ideal S100000x128 .f32) (rhs : FVec Ideal S128x40 .f32) (r : Fin 100000) (q : Fin 40) :
    Host.dotGeneral dot_S100000x128_S128x40_S100000x40_1_0_0_1_n_n none lhs rhs (ix2 r q) = ∑ k : Fin 128, lhs (ix2 r k) * rhs (ix2 k q) := by
  simp only [Host.dotGeneral]
  refine (Ideal.dotGeneral_apply dot_S100000x128_S128x40_S100000x40_1_0_0_1_n_n none _ lhs rhs (ix2 r q)).trans ?_
  rw [← Equiv.sum_comp (contrEquiv1 dot_S100000x128_S128x40_S100000x40_1_0_0_1_n_n 128 rfl rfl).symm]
  refine Finset.sum_congr rfl fun k _ => ?_
  have hk := contrEquiv1_symm_val dot_S100000x128_S128x40_S100000x40_1_0_0_1_n_n 128 rfl rfl k
  have el : dot_S100000x128_S128x40_S100000x40_1_0_0_1_n_n.lhsIdx (ix2 r q) ((contrEquiv1 dot_S100000x128_S128x40_S100000x40_1_0_0_1_n_n 128 rfl rfl).symm k) = ix2 r k := funext fun a => Fin.ext (by
    match a with
    | ⟨0, _⟩ => exact lhs40_0 _ _
    | ⟨1, _⟩ => exact (lhs40_1 _ _).trans hk)
  have er : dot_S100000x128_S128x40_S100000x40_1_0_0_1_n_n.rhsIdx (ix2 r q) ((contrEquiv1 dot_S100000x128_S128x40_S100000x40_1_0_0_1_n_n 128 rfl rfl).symm k) = ix2 k q := funext fun a => Fin.ext (by
    match a with
    | ⟨0, _⟩ => exact (rhs40_0 _ _).trans hk
    | ⟨1, _⟩ => exact rhs40_1 _ _)
  rw [el, er]

/-! ## The bias and the zero, read at an entry -/

/-- The bias broadcast to one row and then to every row, at (r, q), is the bias at q. -/
theorem bias128_at (b : FVec Ideal S128 .f32) (r : Fin 100000) (q : Fin 128) :
    broadcastInDim S100000x128 ![0, 1] bcast_S1x128_S100000x128_0_1 (broadcastInDim S1x128 ![1] bcast_S128_S1x128_1 b) (ix2 r q) = b (ix1 q) := by
  refine (broadcastInDim_apply ![0, 1] bcast_S1x128_S100000x128_0_1 _ (ix2 r q) (ix2 (0 : Fin 1) q) (fun a => ?_)).trans ?_
  · match a with
    | ⟨0, _⟩ => rfl
    | ⟨1, _⟩ => rfl
  · refine broadcastInDim_apply ![1] bcast_S128_S1x128_1 b (ix2 (0 : Fin 1) q) (ix1 q) (fun a => ?_)
    match a with
    | ⟨0, _⟩ => rfl

theorem bias40_at (b : FVec Ideal S40 .f32) (r : Fin 100000) (q : Fin 40) :
    broadcastInDim S100000x40 ![0, 1] bcast_S1x40_S100000x40_0_1 (broadcastInDim S1x40 ![1] bcast_S40_S1x40_1 b) (ix2 r q) = b (ix1 q) := by
  refine (broadcastInDim_apply ![0, 1] bcast_S1x40_S100000x40_0_1 _ (ix2 r q) (ix2 (0 : Fin 1) q) (fun a => ?_)).trans ?_
  · match a with
    | ⟨0, _⟩ => rfl
    | ⟨1, _⟩ => rfl
  · refine broadcastInDim_apply ![1] bcast_S40_S1x40_1 b (ix2 (0 : Fin 1) q) (ix1 q) (fun a => ?_)
    match a with
    | ⟨0, _⟩ => rfl

/-- The broadcast zero word, at any entry, is 0. -/
theorem zero_at (j : S100000x128.Idx) :
    broadcastInDim S100000x128 ![] bcast_S_S100000x128 (constant (F := Ideal) S_ .f32 0x00000000#32) j = (0 : EReal) := by
  refine (broadcastInDim_apply ![] bcast_S_S100000x128 _ j ix0 (fun a => a.elim0)).trans ?_
  exact Ideal.ofBits_zero_f32

/-! ## A layer -/

/-- Layers one and two. -/
theorem layer_relu (x agg : FVec Ideal S100000x128 .f32) (ws wn : FVec Ideal S128x128 .f32) (b : FVec Ideal S128 .f32) :
    maximumf (addf (addf (Host.dotGeneral dot_S100000x128_S128x128_S100000x128_1_0_0_1_n_n none x ws)
          (Host.dotGeneral dot_S100000x128_S128x128_S100000x128_1_0_0_1_n_n none agg wn))
        (broadcastInDim S100000x128 ![0, 1] bcast_S1x128_S100000x128_0_1 (broadcastInDim S1x128 ![1] bcast_S128_S1x128_1 b)))
      (broadcastInDim S100000x128 ![] bcast_S_S100000x128 (constant (F := Ideal) S_ .f32 0x00000000#32))
    = denseRelu x agg ws wn (shapeCast Cert.KernelIdeal.S1x128 b Cert.KernelIdeal.Facts₀.shapeCasts_S128_S1x128) := by
  funext j
  obtain ⟨r, q, rfl⟩ : ∃ (r : Fin 100000) (q : Fin 128), j = ix2 r q := ⟨j 0, j 1, eq_ix2 j⟩
  rw [denseRelu_apply, maximumf_apply, addf_apply, addf_apply, dot128_at, dot128_at, bias128_at, zero_at]
  rw [shapeCast_a_1a_apply]

/-- Layer three: 40 columns, no clamp. -/
theorem layer_lin (x agg : FVec Ideal S100000x128 .f32) (ws wn : FVec Ideal S128x40 .f32) (b : FVec Ideal S40 .f32) :
    addf (addf (Host.dotGeneral dot_S100000x128_S128x40_S100000x40_1_0_0_1_n_n none x ws)
          (Host.dotGeneral dot_S100000x128_S128x40_S100000x40_1_0_0_1_n_n none agg wn))
        (broadcastInDim S100000x40 ![0, 1] bcast_S1x40_S100000x40_0_1 (broadcastInDim S1x40 ![1] bcast_S40_S1x40_1 b))
    = dense x agg ws wn (shapeCast Cert.KernelIdeal.S1x40 b Cert.KernelIdeal.Facts₀.shapeCasts_S40_S1x40) := by
  funext j
  obtain ⟨r, q, rfl⟩ : ∃ (r : Fin 100000) (q : Fin 40), j = ix2 r q := ⟨j 0, j 1, eq_ix2 j⟩
  rw [dense_apply, addf_apply, addf_apply, dot40_at, dot40_at, bias40_at]
  rw [shapeCast_a_1a_apply]

end Cert.ReferenceIdeal.Layers

end
-- ==== Proof.RefResult.lean ====
/-
  The reference's result is the network of its arguments.

  The reference's composed term has the network's own shape: a neighbour average (`refAgg`: the gather along the edge sources, the
  scatter-add into the edge destinations, the scaling by one over max(in-degree, 1)), a hidden layer (`refHidden`: two
  `dot_general`s, their sum, the broadcast bias, the larger of the entry and zero) used twice, and an output layer (`refOutput`: the
  same without the clamp, 40 columns). The neighbour average is the network's `meanAgg` over `invDeg` operation for operation, and
  each layer's group of operations is the dense combine (the layers module); so the term is the network.
-/
import proofs.«174710_j26379689132538_1_alg».proof.Proof.RefLayers
import proofs.«174710_j26379689132538_1_alg».proof.Proof.Net

set_option maxRecDepth 16384

noncomputable section

namespace Cert.ReferenceIdeal.Result

open Cert.ReferenceIdeal Cert.ReferenceIdeal.Gen Cert.ReferenceIdeal.Value Cert.ReferenceIdeal.Layers Cert.KernelIdeal.Glue Cert.Sage
open Idealize.ShloMosaic Idealize.ShloMosaic.TcCoe Idealize.SL.Sem

/-- The reference's neighbour average of `x` along the edges `src → dst`, as its host operations compute it. -/
def refAgg (x : FVec Ideal S100000x128 .f32) (src dst : (⟨S1600000, .i32⟩ : BufTy).Contents (Elt Ideal)) : FVec Ideal S100000x128 .f32 :=
  mulf
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 x
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1
      (broadcastInDim S100000x1 ![0] bcast_S100000_S100000x1_0
        (Host.divf (F := Ideal) (broadcastInDim S100000 ![] bcast_S_S100000 (constant (F := Ideal) S_ .f32 0x3F800000#32))
          (maximumf
            (Host.scatterAdd (F := Ideal) scatter_S100000_S1600000x1_S1600000_n_0_0_1
              (broadcastInDim S100000 ![] bcast_S_S100000 (constant (F := Ideal) S_ .f32 0x00000000#32))
              (broadcastInDim S1600000x1 ![0] bcast_S1600000_S1600000x1_0 dst)
              (broadcastInDim S1600000 ![] bcast_S_S1600000 (constant (F := Ideal) S_ .f32 0x3F800000#32)))
            (broadcastInDim S100000 ![] bcast_S_S100000 (constant (F := Ideal) S_ .f32 0x3F800000#32))))))

/-- A hidden layer as the reference's host operations compute it. -/
def refHidden (x : FVec Ideal S100000x128 .f32) (src dst : (⟨S1600000, .i32⟩ : BufTy).Contents (Elt Ideal)) (ws wn : FVec Ideal S128x128 .f32)
    (b : FVec Ideal S128 .f32) : FVec Ideal S100000x128 .f32 :=
  maximumf (addf (addf (Host.dotGeneral dot_S100000x128_S128x128_S100000x128_1_0_0_1_n_n none x ws)
        (Host.dotGeneral dot_S100000x128_S128x128_S100000x128_1_0_0_1_n_n none (refAgg x src dst) wn))
      (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

/-- The output layer as the reference's host operations compute it. -/
def refOutput (x : FVec Ideal S100000x128 .f32) (src dst : (⟨S1600000, .i32⟩ : BufTy).Contents (Elt Ideal)) (ws wn : FVec Ideal S128x40 .f32)
    (b : FVec Ideal S40 .f32) : FVec Ideal S100000x40 .f32 :=
  addf (addf (Host.dotGeneral dot_S100000x128_S128x40_S100000x40_1_0_0_1_n_n none x ws)
      (Host.dotGeneral dot_S100000x128_S128x40_S100000x40_1_0_0_1_n_n none (refAgg x src dst) wn))
    (broadcastInDim S100000x40 ![0, 1] bcast_S1x40_S100000x40_0_1 (broadcastInDim S1x40 ![1] bcast_S40_S1x40_1 b))

/-- The two programs average the neighbours with the same operations on the same dimension records. -/
theorem refAgg_eq (x : FVec Ideal S100000x128 .f32) (src dst : (⟨S1600000, .i32⟩ : BufTy).Contents (Elt Ideal)) :
    refAgg x src dst = meanAgg x src dst (invDeg dst) := rfl

theorem refHidden_eq (x : FVec Ideal S100000x128 .f32) (src dst : (⟨S1600000, .i32⟩ : BufTy).Contents (Elt Ideal)) (ws wn : FVec Ideal S128x128 .f32)
    (b : FVec Ideal S128 .f32) : refHidden x src dst ws wn b = hiddenLayer x src dst ws wn b := by
  unfold refHidden hiddenLayer
  rw [layer_relu, refAgg_eq]

theorem refOutput_eq (x : FVec Ideal S100000x128 .f32) (src dst : (⟨S1600000, .i32⟩ : BufTy).Contents (Elt Ideal)) (ws wn : FVec Ideal S128x40 .f32)
    (b : FVec Ideal S40 .f32) : refOutput x src dst ws wn b = outputLayer x src dst ws wn b := by
  unfold refOutput outputLayer
  rw [layer_lin, refAgg_eq]

/-- The reference's result term is the network of the reference's arguments. -/
theorem result (m : (ℓ : Loc nD τ sig) → Buf (Elt Ideal) ℓ) (c : Dev nD) :
    res_main_v64 (F := Ideal) m c
      = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (show res_main_v64 (F := Ideal) m c = refOutput (refHidden (refHidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8))) (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg11)) from rfl).trans ?_
  rw [refHidden_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)),
    refHidden_eq (hiddenLayer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8)),
    refOutput_eq (hiddenLayer (hiddenLayer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8))) (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg11))]
  rfl

end Cert.ReferenceIdeal.Result

end
-- ==== Proof.lean ====
/-
  A three-layer graph network (mean aggregation over in-neighbours, then a dense combine) computed two ways.

  The kernel program computes each layer's dense combine  x · Ws + agg · Wn + b  (clamped below at zero in the first two layers) with
  a launch that walks the 100000 node rows in 20 blocks of 5000; the reference computes it with the host's `dot_general`. The
  neighbour average `agg` — a gather along the edge sources, a scatter-add into the edge destinations, a scaling by the inverse
  in-degree — is computed by the same host operations in both programs.

  At the exact instance a product entry is the plain sum over the 128 feature columns on both sides, with the two products added
  first and the bias last on both sides, so the two layers are the same function of the same arrays, entry by entry: no
  rearrangement of a sum and no cancellation is involved, and the finiteness of the inputs is never used. A launch's result
  array is the combine of the whole arrays because a result row depends on the same row of `x` and `agg` only and the 20 blocks tile
  the rows. The result of the kernel program is read back through its six segments (host operations, launch, three times) to the
  network of the twelve arguments; the reference's composed term is rewritten, layer by layer, to the same network.

  The three frame claims: the two kernel programs' by the frame certificate of the three launches, the reference's by its run.
  The idealization rewrote no operation, so there is nothing to preserve.
-/
import proofs.«174710_j26379689132538_1_alg».proof.Defs
import proofs.«174710_j26379689132538_1_alg».proof.Proof.Gen.Kernel
import proofs.«174710_j26379689132538_1_alg».proof.Proof.Gen.KernelIdeal
import proofs.«174710_j26379689132538_1_alg».proof.Proof.Gen.ReferenceIdeal
import proofs.«174710_j26379689132538_1_alg».proof.Proof.Gen.ReferenceIdeal.Run
import proofs.«174710_j26379689132538_1_alg».proof.Proof.Gen.Pre_finite_inputs
import proofs.«174710_j26379689132538_1_alg».proof.Proof.GenP.Kernel.Frame
import proofs.«174710_j26379689132538_1_alg».proof.Proof.GenP.KernelIdeal.Frame
import proofs.«174710_j26379689132538_1_alg».proof.Proof.KernelRun
import proofs.«174710_j26379689132538_1_alg».proof.Proof.KernelFold
import proofs.«174710_j26379689132538_1_alg».proof.Proof.RefResult
import Idealize.ShloMosaic.Adequacy
import Idealize.ShloMosaic.Init

noncomputable section

namespace Cert.Proof

open Idealize.ShloMosaic Idealize.ShloMosaic.TcCoe Idealize.SL.Sem

/-- The word-level kernel program runs, faults nowhere, and leaves its arguments as launched. -/
theorem frame_kernel : Cert.frame_Kernel := fun m ρ _ => Cert.Kernel.GenP.frame m ρ

/-- So does the kernel program read at the exact instance. -/
theorem frame_kernelIdeal : Cert.frame_KernelIdeal := fun m ρ _ => Cert.KernelIdeal.GenP.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten when the kernel program was read at the exact instance. -/
theorem preserves : Cert.preserves_Kernel_KernelIdeal := trivial

/-- From memories agreeing on the twelve arguments both programs end with the network of those arguments in their result
    buffers. -/
theorem algebraic : Cert.algebraic_KernelIdeal_ReferenceIdeal := by
  intro m ρ m' ρ' _ hagree
  refine ⟨fun c => Cert.KernelIdeal.GenP.W6 m ρ c (Proc.devRef .tc Cert.KernelIdeal.main_v50), Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  show Cert.ReferenceIdeal.Value.res_main_v64 m' c = Cert.KernelIdeal.GenP.W6 m ρ c (Proc.devRef .tc Cert.KernelIdeal.main_v50)
  rw [Cert.KernelIdeal.Fold.result m ρ c, Cert.ReferenceIdeal.Result.result m' c, h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
